-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x9216x4096 : Shape := ⟨3, ![1, 9216, 4096]⟩
abbrev S_ : Shape := ⟨0, ![]⟩

class Facts : Prop where
  bcast_S_S1x9216x4096 : S_.BroadcastsInDim S1x9216x4096 (![] : Fin 0 → Fin S1x9216x4096.rank)
  reducesTo_S1x9216x4096_S_d0_1_2 : S1x9216x4096.ReducesTo [0, 1, 2] S_
  h_S_ : 0 < S_.numel

variable [Facts]

def fn {F : FTy → Type} [FloatOps F] (main_arg0 : FVec F S1x9216x4096 .f32) : IVec S_ 1 :=
  let main_v0 : FVec F S1x9216x4096 .f32 := Host.absf main_arg0
  let main_cst : FVec F S_ .f32 := constant S_ .f32 0x7F800000#32
  let main_v1 : FVec F S1x9216x4096 .f32 := broadcastInDim S1x9216x4096 ![] bcast_S_S1x9216x4096 main_cst
  let main_v2 : IVec S1x9216x4096 1 := cmpf .olt main_v0 main_v1
  let main_c : IVec S_ 1 := constantI S_ 1 1#1
  let main_v3 : IVec S_ 1 := (fun x v => Host.reduce IntOp.andi x v reducesTo_S1x9216x4096_S_d0_1_2 h_S_) main_v2 main_c
  main_v3
-- ==== Kernel.lean ====
abbrev S1x9216x4096 : Shape := ⟨3, ![1, 9216, 4096]⟩
abbrev S36x1048576 : Shape := ⟨2, ![36, 1048576]⟩
abbrev S2x36x36 : Shape := ⟨3, ![2, 36, 36]⟩
abbrev S36x65536 : Shape := ⟨2, ![36, 65536]⟩
abbrev S1x36x36 : Shape := ⟨3, ![1, 36, 36]⟩
abbrev S36x36 : Shape := ⟨2, ![36, 36]⟩
abbrev S_ : Shape := ⟨0, ![]⟩
abbrev S36 : Shape := ⟨1, ![36]⟩
abbrev S36x1 : Shape := ⟨2, ![36, 1]⟩
abbrev S36x32768 : Shape := ⟨2, ![36, 32768]⟩
abbrev S1x36x1048576 : Shape := ⟨3, ![1, 36, 1048576]⟩

abbrev nBuf : Space → Nat
  | .hbm => 31
  | .vmem => 9
  | .smem => 0
  | _ => 0

abbrev bufTy : (tb : Table) → Fin (tcTables nBuf tb) → BufTy
  | .hbm, ⟨0, _⟩ => ⟨S1x9216x4096, .f32⟩
  | .hbm, ⟨1, _⟩ => ⟨S36x1048576, .f32⟩
  | .hbm, ⟨2, _⟩ => ⟨S2x36x36, .f32⟩
  | .hbm, ⟨3, _⟩ => ⟨S1x36x36, .f32⟩
  | .hbm, ⟨4, _⟩ => ⟨S36x36, .f32⟩
  | .hbm, ⟨5, _⟩ => ⟨S1x36x36, .f32⟩
  | .hbm, ⟨6, _⟩ => ⟨S36x36, .f32⟩
  | .hbm, ⟨7, _⟩ => ⟨S36x36, .f32⟩
  | .hbm, ⟨8, _⟩ => ⟨S_, .f32⟩
  | .hbm, ⟨9, _⟩ => ⟨S36x36, .f32⟩
  | .hbm, ⟨10, _⟩ => ⟨S36x36, .f32⟩
  | .hbm, ⟨11, _⟩ => ⟨S36x36, .f32⟩
  | .hbm, ⟨12, _⟩ => ⟨S_, .f32⟩
  | .hbm, ⟨13, _⟩ => ⟨S36, .f32⟩
  | .hbm, ⟨14, _⟩ => ⟨S_, .f32⟩
  | .hbm, ⟨15, _⟩ => ⟨S36, .f32⟩
  | .hbm, ⟨16, _⟩ => ⟨S36, .f32⟩
  | .hbm, ⟨17, _⟩ => ⟨S36x1, .f32⟩
  | .hbm, ⟨18, _⟩ => ⟨S36x36, .f32⟩
  | .hbm, ⟨19, _⟩ => ⟨S36x36, .f32⟩
  | .hbm, ⟨20, _⟩ => ⟨S36x36, .f32⟩
  | .hbm, ⟨21, _⟩ => ⟨S_, .f32⟩
  | .hbm, ⟨22, _⟩ => ⟨S36, .f32⟩
  | .hbm, ⟨23, _⟩ => ⟨S36x1, .f32⟩
  | .hbm, ⟨24, _⟩ => ⟨S36x36, .f32⟩
  | .hbm, ⟨25, _⟩ => ⟨S36x36, .f32⟩
  | .hbm, ⟨26, _⟩ => ⟨S_, .f32⟩
  | .hbm, ⟨27, _⟩ => ⟨S36x36, .f32⟩
  | .hbm, ⟨28, _⟩ => ⟨S36x36, .f32⟩
  | .hbm, ⟨29, _⟩ => ⟨S36x1048576, .f32⟩
  | .hbm, ⟨30, _⟩ => ⟨S1x36x1048576, .f32⟩
  | .local _ .vmem, ⟨0, _⟩ => ⟨S36x65536, .f32⟩
  | .local _ .vmem, ⟨1, _⟩ => ⟨S36x65536, .f32⟩
  | .local _ .vmem, ⟨2, _⟩ => ⟨S1x36x36, .f32⟩
  | .local _ .vmem, ⟨3, _⟩ => ⟨S1x36x36, .f32⟩
  | .local _ .vmem, ⟨4, _⟩ => ⟨S36x36, .f32⟩
  | .local _ .vmem, ⟨5, _⟩ => ⟨S36x32768, .f32⟩
  | .local _ .vmem, ⟨6, _⟩ => ⟨S36x32768, .f32⟩
  | .local _ .vmem, ⟨7, _⟩ => ⟨S36x32768, .f32⟩
  | .local _ .vmem, ⟨8, _⟩ => ⟨S36x32768, .f32⟩
  | _, _ => ⟨S1x9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S36x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x36x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S36x36 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S36x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S36x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x9216x4096_S36x1048576 : S1x9216x4096.ShapeCasts S36x1048576
  inb_S1x36x36_S1x36x36_0_0_0 : ∀ a, (![0, 0, 0] : Fin 3 → Nat) a + S1x36x36.size a ≤ S1x36x36.size a
  h_S1x36x36 : 0 < S1x36x36.numel
  shapeCasts_S1x36x36_S36x36 : S1x36x36.ShapeCasts S36x36
  shapeCasts_S36x36_S1x36x36 : S36x36.ShapeCasts S1x36x36
  inb_S36x65536_S36x65536_0_0 : ∀ a, (![0, 0] : Fin 2 → Nat) a + S36x65536.size a ≤ S36x65536.size a
  h_S36x65536 : 0 < S36x65536.numel
  shapeCasts_S36x65536_S36x65536 : S36x65536.ShapeCasts S36x65536
  bitsLt_bf16_f32 : FTy.bits .bf16 < FTy.bits .f32
  slices_S2x36x36_S1x36x36_0_0_0 : S2x36x36.Slices ![0, 0, 0] S1x36x36
  slices_S2x36x36_S1x36x36_1_0_0 : S2x36x36.Slices ![1, 0, 0] S1x36x36
  bcast_S_S36x36 : S_.BroadcastsInDim S36x36 (![] : Fin 0 → Fin S36x36.rank)
  transposes_S36x36_S36x36_1_0 : S36x36.Transposes [1, 0] S36x36
  reducesTo_S36x36_S36_d1 : S36x36.ReducesTo [1] S36
  h_S_ : 0 < S_.numel
  bcast_S_S36 : S_.BroadcastsInDim S36 (![] : Fin 0 → Fin S36.rank)
  bcast_S36_S36x1_0 : S36.BroadcastsInDim S36x1 (![0] : Fin 1 → Fin S36x1.rank)
  bcast_S36x1_S36x36_0_1 : S36x1.BroadcastsInDim S36x36 (![0, 1] : Fin 2 → Fin S36x36.rank)
  inb_S36x36_S36x36_0_0 : ∀ a, (![0, 0] : Fin 2 → Nat) a + S36x36.size a ≤ S36x36.size a
  h_S36x36 : 0 < S36x36.numel
  shapeCasts_S36x36_S36x36 : S36x36.ShapeCasts S36x36
  inb_S36x32768_S36x32768_0_0 : ∀ a, (![0, 0] : Fin 2 → Nat) a + S36x32768.size a ≤ S36x32768.size a
  h_S36x32768 : 0 < S36x32768.numel
  shapeCasts_S36x32768_S36x32768 : S36x32768.ShapeCasts S36x32768
  shapeCasts_S36x1048576_S1x36x1048576 : S36x1048576.ShapeCasts S1x36x1048576
  dot_S36x65536_S36x65536_S36x36_1_1_0_0_n_n_wf : DotDims.WF S36x65536 S36x65536 S36x36 [1] [1] [0] [0] [] []
  dot_S36x36_S36x32768_S36x32768_1_0_0_1_n_n_wf : DotDims.WF S36x36 S36x32768 S36x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S36x65536.size a ≤ S36x1048576.size a
  hwx0_0 : ∀ i : grid0.Coords, EltTy.bits .f32 = 32 ∨ (Rect.block (s := S36x1048576) S36x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x36x36.size a ≤ S2x36x36.size a
  hwx0_1 : ∀ i : grid0.Coords, EltTy.bits .f32 = 32 ∨ (Rect.block (s := S2x36x36) S1x36x36.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S36x36.size a ≤ S36x36.size a
  hwx1_0 : ∀ i : grid1.Coords, EltTy.bits .f32 = 32 ∨ (Rect.block (s := S36x36) S36x36.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S36x32768.size a ≤ S36x1048576.size a
  hwx1_1 : ∀ i : grid1.Coords, EltTy.bits .f32 = 32 ∨ (Rect.block (s := S36x1048576) S36x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S36x32768.size a ≤ S36x1048576.size a
  hwx1_2 : ∀ i : grid1.Coords, EltTy.bits .f32 = 32 ∨ (Rect.block (s := S36x1048576) S36x32768.size (cc1_transform_2 i) (hinb1_2 i)).WholeWords (EltTy.packing .f32)

variable [Facts₀]

def dot_S36x65536_S36x65536_S36x36_1_1_0_0_n_n : DotDims S36x65536 S36x65536 S36x36 where
  lhsContracting := [1]
  rhsContracting := [1]
  lhsNonContracting := [0]
  rhsNonContracting := [0]
  lhsBatch := []
  rhsBatch := []
  wf := dot_S36x65536_S36x65536_S36x36_1_1_0_0_n_n_wf
def dot_S36x36_S36x32768_S36x32768_1_0_0_1_n_n : DotDims S36x36 S36x32768 S36x32768 where
  lhsContracting := [1]
  rhsContracting := [0]
  lhsNonContracting := [0]
  rhsNonContracting := [1]
  lhsBatch := []
  rhsBatch := []
  wf := dot_S36x36_S36x32768_S36x32768_1_0_0_1_n_n_wf

abbrev win0_0 : Pipeline.Window sig grid0 :=
  Pipeline.Window.ofSpec (Memref.whole main_v0) S36x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x36x36.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v22) S36x36.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S36x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S36x32768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x9216x4096 : Shape := ⟨3, ![1, 9216, 4096]⟩
abbrev S1x36x1048576 : Shape := ⟨3, ![1, 36, 1048576]⟩
abbrev S1x36x36 : Shape := ⟨3, ![1, 36, 36]⟩
abbrev S_ : Shape := ⟨0, ![]⟩
abbrev S1x36 : Shape := ⟨2, ![1, 36]⟩
abbrev S1x36x1 : Shape := ⟨3, ![1, 36, 1]⟩
abbrev S36x36 : Shape := ⟨2, ![36, 36]⟩
abbrev S36x1048576 : Shape := ⟨2, ![36, 1048576]⟩

abbrev nBuf : Space → Nat
  | .hbm => 28
  | .vmem => 0
  | .smem => 0
  | _ => 0

abbrev bufTy : (tb : Table) → Fin (tcTables nBuf tb) → BufTy
  | .hbm, ⟨0, _⟩ => ⟨S1x9216x4096, .f32⟩
  | .hbm, ⟨1, _⟩ => ⟨S1x36x1048576, .f32⟩
  | .hbm, ⟨2, _⟩ => ⟨S1x36x36, .f32⟩
  | .hbm, ⟨3, _⟩ => ⟨S1x36x36, .f32⟩
  | .hbm, ⟨4, _⟩ => ⟨S_, .f32⟩
  | .hbm, ⟨5, _⟩ => ⟨S1x36x36, .f32⟩
  | .hbm, ⟨6, _⟩ => ⟨S1x36x36, .f32⟩
  | .hbm, ⟨7, _⟩ => ⟨S_, .f32⟩
  | .hbm, ⟨8, _⟩ => ⟨S1x36, .f32⟩
  | .hbm, ⟨9, _⟩ => ⟨S_, .f32⟩
  | .hbm, ⟨10, _⟩ => ⟨S1x36, .f32⟩
  | .hbm, ⟨11, _⟩ => ⟨S1x36, .f32⟩
  | .hbm, ⟨12, _⟩ => ⟨S1x36x1, .f32⟩
  | .hbm, ⟨13, _⟩ => ⟨S1x36x36, .f32⟩
  | .hbm, ⟨14, _⟩ => ⟨S1x36x36, .f32⟩
  | .hbm, ⟨15, _⟩ => ⟨S1x36x36, .f32⟩
  | .hbm, ⟨16, _⟩ => ⟨S_, .f32⟩
  | .hbm, ⟨17, _⟩ => ⟨S1x36, .f32⟩
  | .hbm, ⟨18, _⟩ => ⟨S1x36x1, .f32⟩
  | .hbm, ⟨19, _⟩ => ⟨S1x36x36, .f32⟩
  | .hbm, ⟨20, _⟩ => ⟨S1x36x36, .f32⟩
  | .hbm, ⟨21, _⟩ => ⟨S_, .f32⟩
  | .hbm, ⟨22, _⟩ => ⟨S1x36x36, .f32⟩
  | .hbm, ⟨23, _⟩ => ⟨S1x36x36, .f32⟩
  | .hbm, ⟨24, _⟩ => ⟨S36x36, .f32⟩
  | .hbm, ⟨25, _⟩ => ⟨S36x1048576, .f32⟩
  | .hbm, ⟨26, _⟩ => ⟨S36x1048576, .f32⟩
  | .hbm, ⟨27, _⟩ => ⟨S1x36x1048576, .f32⟩
  | _, _ => ⟨S1x9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  shapeCasts_S1x9216x4096_S1x36x1048576 : S1x9216x4096.ShapeCasts S1x36x1048576
  transposes_S1x36x36_S1x36x36_0_2_1 : S1x36x36.Transposes [0, 2, 1] S1x36x36
  bcast_S_S1x36x36 : S_.BroadcastsInDim S1x36x36 (![] : Fin 0 → Fin S1x36x36.rank)
  reducesTo_S1x36x36_S1x36_d2 : S1x36x36.ReducesTo [2] S1x36
  h_S_ : 0 < S_.numel
  bcast_S_S1x36 : S_.BroadcastsInDim S1x36 (![] : Fin 0 → Fin S1x36.rank)
  bcast_S1x36_S1x36x1_0_1 : S1x36.BroadcastsInDim S1x36x1 (![0, 1] : Fin 2 → Fin S1x36x1.rank)
  bcast_S1x36x1_S1x36x36_0_1_2 : S1x36x1.BroadcastsInDim S1x36x36 (![0, 1, 2] : Fin 3 → Fin S1x36x36.rank)
  shapeCasts_S1x36x36_S36x36 : S1x36x36.ShapeCasts S36x36
  shapeCasts_S1x36x1048576_S36x1048576 : S1x36x1048576.ShapeCasts S36x1048576
  bcast_S36x1048576_S1x36x1048576_1_2 : S36x1048576.BroadcastsInDim S1x36x1048576 (![1, 2] : Fin 2 → Fin S1x36x1048576.rank)
  dot_S1x36x1048576_S1x36x1048576_S1x36x36_2_2_1_1_0_0_wf : DotDims.WF S1x36x1048576 S1x36x1048576 S1x36x36 [2] [2] [1] [1] [0] [0]
  dot_S36x36_S36x1048576_S36x1048576_1_0_0_1_n_n_wf : DotDims.WF S36x36 S36x1048576 S36x1048576 [1] [0] [0] [1] [] []

variable [Facts₀]

def dot_S1x36x1048576_S1x36x1048576_S1x36x36_2_2_1_1_0_0 : DotDims S1x36x1048576 S1x36x1048576 S1x36x36 where
  lhsContracting := [2]
  rhsContracting := [2]
  lhsNonContracting := [1]
  rhsNonContracting := [1]
  lhsBatch := [0]
  rhsBatch := [0]
  wf := dot_S1x36x1048576_S1x36x1048576_S1x36x36_2_2_1_1_0_0_wf
def dot_S36x36_S36x1048576_S36x1048576_1_0_0_1_n_n : DotDims S36x36 S36x1048576 S36x1048576 where
  lhsContracting := [1]
  rhsContracting := [0]
  lhsNonContracting := [0]
  rhsNonContracting := [1]
  lhsBatch := []
  rhsBatch := []
  wf := dot_S36x36_S36x1048576_S36x1048576_1_0_0_1_n_n_wf

class Facts : Prop extends Facts₀ where

variable [Facts]
-- ==== Proof.ZeroLaws.lean ====
/-
  Laws of the extended reals this certificate rests on. On the extended reals a product with zero is zero
  whatever the other factor is, an infinity included (there is no "infinity times zero is undefined"): so an
  array multiplied entry by entry with the zero array is the zero array, and a matrix product whose left factor
  is the zero array is the zero array, every term of every contraction sum being `0 * r = 0`. A change of float
  format is the identity, and the f32 word of all zero bits is the real number zero.
-/
import Idealize.ShloMosaic.PureOps.Ideal
import Idealize.ShloMosaic.PureOps.Ideal.Laws

noncomputable section

namespace Cert.ZeroLaws

open Idealize.ShloMosaic

/-- The scalar zero, broadcast to any shape along any axes, reads zero at every index. -/
theorem bcast_zero_apply {s t : Shape} (dims : Fin s.rank → Fin t.rank) (h : s.BroadcastsInDim t dims) (j : t.Idx) :
    broadcastInDim t dims h (constant (F := Ideal) s .f32 0x00000000#32) j = (0 : EReal) := by
  show Ideal.ofBits .f32 0x00000000#32 = 0
  exact Ideal.ofBits_zero_f32

/-- An array times an array that is zero everywhere is zero everywhere: `x * 0 = 0` for every extended real `x`. -/
theorem mulf_zero_right {s : Shape} (x z : FVec Ideal s .f32) (hz : ∀ i, z i = (0 : EReal)) :
    mulf x z = fun _ => (0 : EReal) := by
  funext i
  show x i * z i = 0
  rw [hz i, mul_zero]

/-- A matrix product accumulated into zero whose LEFT factor is zero everywhere is zero everywhere: at each output
    index it is the sum over the contraction index of `0 * r`. -/
theorem matmul_zero_left {sl sr so : Shape} {φ₁ φ₂ : FTy} (d : DotDims sl sr so) (prec : Option ContractPrecision)
    (l : FVec Ideal sl φ₁) (r : FVec Ideal sr φ₂) (hl : ∀ i, l i = (0 : EReal)) :
    matmul d prec l r (constant so .f32 0x00000000#32) = fun _ => (0 : EReal) := by
  funext j
  show FloatOps.matmul d prec l r (constant so .f32 0x00000000#32) j = 0
  rw [Ideal.matmul_constant_zero_apply]
  exact Finset.sum_eq_zero fun k _ => by rw [hl, zero_mul]

end Cert.ZeroLaws

end
-- ==== Proof.RefZero.lean ====
/-
  The reference's result is the zero array. Its last stages are: the softmax times the zero array (the dropout
  with probability one), reshaped to a 36 x 36 matrix, multiplied on the left into the 36 x 1048576 input matrix,
  and given a leading unit axis. At an index (0, p, q) the result is the sum over k of
  (softmax(p, k) * 0) * t1(k, q), and each term is zero on the extended reals.
-/
import proofs.«100703_j17789754540526_2_alg».proof.Proof.Gen.ReferenceIdeal.Read

noncomputable section

namespace Cert.ReferenceIdeal.RefZero

open Cert.ReferenceIdeal Cert.ReferenceIdeal.Gen Idealize.ShloMosaic

/-- The reference's result, as a function of the input array, is zero at every index. -/
theorem result_zero (x0 : (⟨S1x9216x4096, .f32⟩ : BufTy).Contents (Elt Ideal)) :
    Read.val_main_v21 (F := Ideal) x0 = fun _ => (0 : EReal) := by
  funext i
  rw [Read.val_main_v21_apply, Read.val_main_v20_apply]
  refine Finset.sum_eq_zero fun k _ => ?_
  rw [Read.val_main_v18_apply, Read.val_main_v17_apply, Read.val_main_v16_apply, Read.val_main_cst_3_apply]
  simp only [Ideal.mulf_def, Ideal.ofBits_def, Ideal.ofBits_zero_f32, mul_zero, zero_mul]

end Cert.ReferenceIdeal.RefZero

end
-- ==== Proof.ZeroBlocks.lean ====
/-
  The second kernel region (the final matrix product) writes the zero array, when the 36 x 36 matrix it is
  entered with is the zero matrix.

  Its grid has 32 points; point t multiplies the whole 36 x 36 left matrix into columns [32768 t, 32768 (t+1))
  of the 36 x 1048576 input matrix and writes the product back to the same columns of the output array. With a
  zero left matrix every product block is zero, so what point t writes back is block t of the zero array. The
  32 column bands cover every index (the band of column q is q / 32768), so the output array ends as the zero
  array.
-/
import proofs.«100703_j17789754540526_2_alg».proof.Proof.Gen.KernelIdeal.Frame
import proofs.«100703_j17789754540526_2_alg».proof.Proof.ZeroLaws
import Idealize.ShloMosaic.Lib.Pipeline.Value

set_option maxRecDepth 16384

noncomputable section

namespace Cert.KernelIdeal.ZeroBlocks

open Cert.KernelIdeal Cert.KernelIdeal.Gen
open Idealize.ShloMosaic Idealize.ShloMosaic.TcCoe Idealize.SL.Sem
open Idealize.ShloMosaic.Pipeline (Dat)

-- the buffer contents the region is entered with
variable (V : (c : Dev nD) → (b : Ref sig .tc) → Buf (Elt Ideal) ((c : Thread nD τ).loc b))

/-- The body's accesses are at offset zero on both axes. -/
theorem offsets_zero : (![0, 0] : Fin 2 → Nat) = fun _ => 0 := funext fun a => by fin_cases a <;> rfl

/-- The body's product block is zero when the left matrix it loaded is zero: the casts are the identity and the
    product accumulates into zero. -/
theorem product_zero (v0 : Vec Ideal S36x36 .f32) (v3 : Vec Ideal S36x32768 .f32) (h0 : ∀ i, v0 i = (0 : EReal)) :
    k1_pay1 (F := Ideal) v0 v3 = fun _ => (0 : EReal) := by
  unfold k1_pay1
  exact Cert.ZeroLaws.matmul_zero_left _ _ _ _ (fun i => h0 _)

/-- The left matrix's block at any point is the whole matrix as the region finds it: zero if that is zero. -/
theorem left_block_zero (c : Dev nD) (hV : V c main_v22 = fun _ => (0 : EReal)) (t : Fin cfg1.N)
    (i : ((cfg1.win 0).xblock (cfg1.grid.coords t)).Idx) : iblk1 V c 0 t i = (0 : EReal) := by
  unfold iblk1
  show V c main_v22 (((cfg1.win 0).blk t).view.emb i) = (0 : EReal)
  rw [hV]

/-- What point `t` writes back is block `t` of the zero array. -/
theorem flushed_zero (c : Dev nD) (hV : V c main_v22 = fun _ => (0 : EReal)) (t : Fin cfg1.N) :
    (dat1 (F := Ideal) V c).flushed 2 t = ((cfg1.win 2).blk t).view.read (Elt Ideal) (fun _ => (0 : EReal)) := by
  show (cfg1.win 2).cut (grid1.coords t) ((dat1 V c).after 2 t) = _
  rw [after1_2]
  unfold out1_2
  rw [View.canon_unit_zero offsets_zero]
  simp only [View.ld_unit_zero (S := S36x36) offsets_zero, View.ld_unit_zero (S := S36x32768) offsets_zero]
  rw [product_zero _ _ (left_block_zero V c hV t)]
  rfl

/-- The output's block index at point `t` is (0, t): decided over the grid. -/
theorem out_index : ∀ t : Fin cfg1.N, win1_2.index t (0 : Fin 2) = 0 ∧ win1_2.index t (1 : Fin 2) = t.val :=
  (by decide +kernel : ∀ t : Fin grid1.N, _)

/-- An index of the output array is in point `t`'s block iff each coordinate is in the block's range on its axis. -/
theorem mem_block (t : Fin cfg1.N) (i : S36x1048576.Idx) :
    i ∈ ((cfg1.win 2).blk t).view.set ↔ ∀ a : Fin 2, win1_2.index t a * S36x32768.size a ≤ (i a).val ∧ (i a).val < win1_2.index t a * S36x32768.size a + S36x32768.size a := by
  show i ∈ ((View.whole main_v23).slice (win1_2.rect t)).set ↔ _
  rw [View.set_slice_whole, Rect.mem_set_unit]
  exact Iff.rfl

/-- Every index of the output array is in some point's block: column q is in the band of point q / 32768. -/
theorem cover (i : S36x1048576.Idx) :
    ∃ t : Fin cfg1.N, (cfg1.win 2).flush t = true ∧ i ∈ ((cfg1.win 2).blk t).view.set := by
  have hi0 : (i 0).val < 36 := (i 0).isLt
  have hi1 : (i 1).val < 1048576 := (i 1).isLt
  obtain ⟨t, ht⟩ : ∃ t : Fin cfg1.N, t.val = (i 1).val / 32768 :=
    ⟨⟨(i 1).val / 32768, lt_of_lt_of_eq (by omega) (show (32 : Nat) = cfg1.N from N_1.symm)⟩, rfl⟩
  obtain ⟨e0, e1⟩ := out_index t
  refine ⟨t, flush1_2 t, ?_⟩
  rw [mem_block]
  intro a
  match a with
  | ⟨0, _⟩ => show win1_2.index t (0 : Fin 2) * 36 ≤ (i 0).val ∧ (i 0).val < win1_2.index t (0 : Fin 2) * 36 + 36; omega
  | ⟨1, _⟩ => show win1_2.index t (1 : Fin 2) * 32768 ≤ (i 1).val ∧ (i 1).val < win1_2.index t (1 : Fin 2) * 32768 + 32768; omega

/-- The output array after the region's run is the zero array. -/
theorem final_zero (c : Dev nD) (hV : V c main_v22 = fun _ => (0 : EReal)) :
    (dat1 (F := Ideal) V c).arrAt 2 cfg1.N = fun _ => (0 : EReal) :=
  (dat1 V c).arrAt_eq_of_cover 2 _ (fun t _ => flushed_zero V c hV t) cover

end Cert.KernelIdeal.ZeroBlocks

end
-- ==== Proof.ZeroRun.lean ====
/-
  The idealized kernel program's run, with its result named: every weakly fair execution terminates, nothing
  faulting, with the result array the zero array and the argument unchanged.

  The program is: a reshape of the input to 36 x 1048576; the first kernel region (two partial Gram matrices);
  a stretch of host operations ending in (softmax of the scaled, transposed sum of the partials) times the zero
  matrix; the second kernel region (that 36 x 36 matrix times the reshaped input); a reshape to 1 x 36 x 1048576.
  The buffer contents at each boundary are a fold through these five segments. The matrix the second region is
  entered with is a product with the zero matrix, hence zero, whatever the first region and the softmax computed;
  so the second region writes the zero array, and its reshape is the zero array.
-/
import proofs.«100703_j17789754540526_2_alg».proof.Proof.Gen.KernelIdeal.Frame
import proofs.«100703_j17789754540526_2_alg».proof.Proof.ZeroLaws
import proofs.«100703_j17789754540526_2_alg».proof.Proof.ZeroBlocks
import Idealize.ShloMosaic.Lib.StableHlo.Run

set_option maxRecDepth 16384

noncomputable section

namespace Cert.KernelIdeal.ZeroRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result read off: the result buffer ends at the last boundary's contents, the argument as launched. -/
theorem run_last : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c)⟩)

end AnyFloat

/-! ## The boundary contents at the extended reals -/

variable (m : (ℓ : Loc nD τ sig) → Buf (Elt Ideal) ℓ) (ρ : Dev nD → PrngReg)

/-- The 36 x 36 matrix the second region is entered with is the zero matrix: the last host operation before the
    region multiplies the softmax by the zero matrix. -/
theorem entry_zero (c : Dev nD) : V3 m ρ c main_v22 = fun _ => (0 : EReal) := by
  show StableHlo.after hostOps1 (W2 m ρ c) (Proc.devRef .tc main_v22) = _
  after_results
  exact Cert.ZeroLaws.mulf_zero_right _ _ (fun i => Cert.ZeroLaws.bcast_zero_apply _ _ i)

/-- The result buffer's contents at the last boundary: the reshape of the second region's output array, the zero array. -/
theorem result_zero (c : Dev nD) : W5 m ρ c (Proc.devRef .tc main_v24) = fun _ => (0 : EReal) := by
  show StableHlo.after hostOps2 (W4 m ρ c) (Proc.devRef .tc main_v24) = _
  after_results
  rw [show W4 m ρ c (Proc.devRef .tc main_v23) = (dat1 (V3 m ρ) c).arrAt 2 cfg1.N from W4_arr m ρ c 2,
    Cert.KernelIdeal.ZeroBlocks.final_zero (V3 m ρ) c (entry_zero m ρ c)]
  rfl

/-- THE RUN: every weakly fair execution of the idealized kernel program terminates with the result the zero array
    and the argument unchanged. -/
theorem run : θ_run defs (onTc (τ := τ) (main (F := Ideal))) ⟨m, fun _ => 0, ρ⟩ (fun r => ∀ c : Dev nD,
      r.2.mem ((c.tc : Thread nD τ).loc main_v24) = (fun _ => (0 : EReal))
      ∧ r.2.mem ((c.tc : Thread nD τ).loc main_arg0) = m ((c.tc : Thread nD τ).loc main_arg0)) :=
  (θ_run defs _ _).mono (fun r h c => ⟨(h c).1.trans (result_zero m ρ c), (h c).2⟩) (run_last m ρ)

end Cert.KernelIdeal.ZeroRun

end
-- ==== Proof.lean ====
/-
  The kernel and its reference compute the same array: the zero array.

  Both programs reshape the input x to a 36 x 1048576 matrix t1, form the 36 x 36 Gram matrix of its rows (the
  kernel as two partial sums over halves of the long axis, added on the host), scale it by 1/8192, transpose it,
  take a row softmax, MULTIPLY THE SOFTMAX BY ZERO (a dropout with probability one), multiply the result into t1
  and give the product a leading unit axis. On the extended reals a product with zero is zero whatever the other
  factor, so the matrix after the dropout is the zero matrix in both programs, whatever the Gram matrix and its
  softmax are; its product with t1 is a sum of terms 0 * t1(k, q), zero; so both results are the zero array, at
  every input. Neither the Gram matrix nor the softmax nor the finiteness of the input enters.

  * The three frames: the two kernel programs' are the generated frame certificates; the reference's is its
    generated run with the result dropped.
  * The idealization rewrote nothing, so there is nothing to preserve.
  * The algebraic claim: the idealized kernel's run ends with the result the zero array (ZeroRun: the matrix
    the second kernel region is entered with is zero, ZeroBlocks: so that region writes the zero array), and so
    does the reference's (RefZero), over the laws of ZeroLaws.
-/
import proofs.«100703_j17789754540526_2_alg».proof.Defs
import proofs.«100703_j17789754540526_2_alg».proof.Proof.Gen.Kernel
import proofs.«100703_j17789754540526_2_alg».proof.Proof.Gen.Kernel.Skeleton
import proofs.«100703_j17789754540526_2_alg».proof.Proof.Gen.Kernel.Launch
import proofs.«100703_j17789754540526_2_alg».proof.Proof.Gen.Kernel.Points
import proofs.«100703_j17789754540526_2_alg».proof.Proof.Gen.Kernel.Frame
import proofs.«100703_j17789754540526_2_alg».proof.Proof.Gen.KernelIdeal
import proofs.«100703_j17789754540526_2_alg».proof.Proof.Gen.KernelIdeal.Skeleton
import proofs.«100703_j17789754540526_2_alg».proof.Proof.Gen.KernelIdeal.Launch
import proofs.«100703_j17789754540526_2_alg».proof.Proof.Gen.KernelIdeal.Points
import proofs.«100703_j17789754540526_2_alg».proof.Proof.Gen.KernelIdeal.Frame
import proofs.«100703_j17789754540526_2_alg».proof.Proof.Gen.ReferenceIdeal
import proofs.«100703_j17789754540526_2_alg».proof.Proof.Gen.ReferenceIdeal.Run
import proofs.«100703_j17789754540526_2_alg».proof.Proof.Gen.ReferenceIdeal.Read
import proofs.«100703_j17789754540526_2_alg».proof.Proof.Gen.Pre_finite_inputs
import proofs.«100703_j17789754540526_2_alg».proof.Proof.ZeroLaws
import proofs.«100703_j17789754540526_2_alg».proof.Proof.RefZero
import proofs.«100703_j17789754540526_2_alg».proof.Proof.ZeroBlocks
import proofs.«100703_j17789754540526_2_alg».proof.Proof.ZeroRun
import Idealize.ShloMosaic.Adequacy
import Idealize.ShloMosaic.Init

noncomputable section

namespace Cert.Proof

open Idealize.ShloMosaic Idealize.SL.Sem

/-- The word-level kernel program runs and leaves its argument unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both idealized programs end with the zero array as their result. -/
theorem algebraic : Cert.algebraic_KernelIdeal_ReferenceIdeal := by
  intro m ρ m' ρ' _ _
  refine ⟨fun _ => (fun _ => (0 : EReal)), Cert.KernelIdeal.ZeroRun.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v21_eq _).trans (Cert.ReferenceIdeal.RefZero.result_zero _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
